-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S_ : Shape := ⟨0, ![]⟩

class Facts : Prop where
  bcast_S_S512x1024x128 : S_.BroadcastsInDim S512x1024x128 (![] : Fin 0 → Fin S512x1024x128.rank)
  reducesTo_S512x1024x128_S_d0_1_2 : S512x1024x128.ReducesTo [0, 1, 2] S_
  h_S_ : 0 < S_.numel
  bcast_S_S1024x64x8x128 : S_.BroadcastsInDim S1024x64x8x128 (![] : Fin 0 → Fin S1024x64x8x128.rank)
  reducesTo_S1024x64x8x128_S_d0_1_2_3 : S1024x64x8x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S512x1024x128 .f32) (main_arg1 : FVec F S1024x64x8x128 .f32) (main_arg2 : IVec S8x64x1024x1 32) (main_arg3 : FVec F S128x128 .f32) (main_arg4 : FVec F S128 .f32) : IVec S_ 1 :=
  let main_v0 : FVec F S512x1024x128 .f32 := Host.absf main_arg0
  let main_cst : FVec F S_ .f32 := constant S_ .f32 0x7F800000#32
  let main_v1 : FVec F S512x1024x128 .f32 := broadcastInDim S512x1024x128 ![] bcast_S_S512x1024x128 main_cst
  let main_v2 : IVec S512x1024x128 1 := cmpf .olt main_v0 main_v1
  let main_c : IVec S_ 1 := constantI S_ 1 1#1
  let main_v3 : IVec S_ 1 := (fun x v => Host.reduce IntOp.andi x v reducesTo_S512x1024x128_S_d0_1_2 h_S_) main_v2 main_c
  let main_v4 : FVec F S1024x64x8x128 .f32 := Host.absf main_arg1
  let main_cst_0 : FVec F S_ .f32 := constant S_ .f32 0x7F800000#32
  let main_v5 : FVec F S1024x64x8x128 .f32 := broadcastInDim S1024x64x8x128 ![] bcast_S_S1024x64x8x128 main_cst_0
  let main_v6 : IVec S1024x64x8x128 1 := cmpf .olt main_v4 main_v5
  let main_c_1 : IVec S_ 1 := constantI S_ 1 1#1
  let main_v7 : IVec S_ 1 := (fun x v => Host.reduce IntOp.andi x v reducesTo_S1024x64x8x128_S_d0_1_2_3 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S8x64x1024x128 : Shape := ⟨4, ![8, 64, 1024, 128]⟩
abbrev S8x64x1024 : Shape := ⟨3, ![8, 64, 1024]⟩
abbrev S128x8x8x128 : Shape := ⟨4, ![128, 8, 8, 128]⟩
abbrev S8x8x128 : Shape := ⟨3, ![8, 8, 128]⟩
abbrev S8x8x128x128 : Shape := ⟨4, ![8, 8, 128, 128]⟩
abbrev S8x128 : Shape := ⟨2, ![8, 128]⟩
abbrev S1x8x128 : Shape := ⟨3, ![1, 8, 128]⟩
abbrev S8x8x128x1 : Shape := ⟨4, ![8, 8, 128, 1]⟩
abbrev S8192x128 : Shape := ⟨2, ![8192, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S512x1024x128, .f32⟩
  | .hbm, ⟨1, _⟩ => ⟨S1024x64x8x128, .f32⟩
  | .hbm, ⟨2, _⟩ => ⟨S8x64x1024x1, .i32⟩
  | .hbm, ⟨3, _⟩ => ⟨S128x128, .f32⟩
  | .hbm, ⟨4, _⟩ => ⟨S128, .f32⟩
  | .hbm, ⟨5, _⟩ => ⟨S8x64x1024x128, .f32⟩
  | .hbm, ⟨6, _⟩ => ⟨S8x64x1024, .i32⟩
  | .hbm, ⟨7, _⟩ => ⟨S128x128, .f32⟩
  | .hbm, ⟨8, _⟩ => ⟨S128x128, .bf16⟩
  | .hbm, ⟨9, _⟩ => ⟨S8x64x1024x128, .f32⟩
  | .hbm, ⟨10, _⟩ => ⟨S512x1024x128, .f32⟩
  | .local _ .vmem, ⟨0, _⟩ => ⟨S128x8x8x128, .f32⟩
  | .local _ .vmem, ⟨1, _⟩ => ⟨S128x8x8x128, .f32⟩
  | .local _ .vmem, ⟨2, _⟩ => ⟨S8x8x128, .i32⟩
  | .local _ .vmem, ⟨3, _⟩ => ⟨S8x8x128, .i32⟩
  | .local _ .vmem, ⟨4, _⟩ => ⟨S8x8x128x128, .f32⟩
  | .local _ .vmem, ⟨5, _⟩ => ⟨S8x8x128x128, .f32⟩
  | .local _ .vmem, ⟨6, _⟩ => ⟨S128x128, .bf16⟩
  | .local _ .vmem, ⟨7, _⟩ => ⟨S128, .f32⟩
  | .local _ .vmem, ⟨8, _⟩ => ⟨S8x8x128x128, .f32⟩
  | .local _ .vmem, ⟨9, _⟩ => ⟨S8x8x128x128, .f32⟩
  | _, _ => ⟨S512x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S128x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S512x1024x128_S8x64x1024x128 : S512x1024x128.ShapeCasts S8x64x1024x128
  shapeCasts_S8x64x1024x1_S8x64x1024 : S8x64x1024x1.ShapeCasts S8x64x1024
  transposes_S128x128_S128x128_1_0 : S128x128.Transposes [1, 0] S128x128
  bitsLt_bf16_f32 : FTy.bits .bf16 < FTy.bits .f32
  inb_S128x8x8x128_S128x8x8x128_0_0_0_0 : ∀ a, (![0, 0, 0, 0] : Fin 4 → Nat) a + S128x8x8x128.size a ≤ S128x8x8x128.size a
  h_S128x8x8x128 : 0 < S128x8x8x128.numel
  transposes_S128x8x8x128_p2_1_0_3_S8x8x128x128 : S128x8x8x128.Transposes [2, 1, 0, 3] S8x8x128x128
  inb_S8x8x128_S8x8x128_0_0_0 : ∀ a, (![0, 0, 0] : Fin 3 → Nat) a + S8x8x128.size a ≤ S8x8x128.size a
  h_S8x8x128 : 0 < S8x8x128.numel
  shapeCasts_S8x8x128_S8x8x128 : S8x8x128.ShapeCasts S8x8x128
  reduces_S8x8x128_S8x128 : S8x8x128.Reduces [0] S8x128
  shapeCasts_S8x128_S1x8x128 : S8x128.ShapeCasts S1x8x128
  broadcasts_S1x8x128_S8x8x128 : S1x8x128.Broadcasts S8x8x128
  shapeCasts_S8x8x128_S8x8x128x1 : S8x8x128.ShapeCasts S8x8x128x1
  broadcasts_S8x8x128x1_S8x8x128x128 : S8x8x128x1.Broadcasts S8x8x128x128
  shapeCasts_S8x8x128x128_S8192x128 : S8x8x128x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S8x8x128x128 : S8192x128.ShapeCasts S8x8x128x128
  inb_S8x8x128x128_S8x8x128x128_0_0_0_0 : ∀ a, (![0, 0, 0, 0] : Fin 4 → Nat) a + S8x8x128x128.size a ≤ S8x8x128x128.size a
  h_S8x8x128x128 : 0 < S8x8x128x128.numel
  shapeCasts_S8x8x128x128_S8x8x128x128 : S8x8x128x128.ShapeCasts S8x8x128x128
  shapeCasts_S8x64x1024x128_S512x1024x128 : S8x64x1024x128.ShapeCasts S512x1024x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x8x128.size a ≤ S1024x64x8x128.size a
  hwx0_0 : ∀ i : grid0.Coords, EltTy.bits .f32 = 32 ∨ (Rect.block (s := S1024x64x8x128) S128x8x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x128.size a ≤ S8x64x1024.size a
  hwx0_1 : ∀ i : grid0.Coords, EltTy.bits .i32 = 32 ∨ (Rect.block (s := S8x64x1024) S8x8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8x128x128.size a ≤ S8x64x1024x128.size a
  hwx0_2 : ∀ i : grid0.Coords, EltTy.bits .f32 = 32 ∨ (Rect.block (s := S8x64x1024x128) S8x8x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8x128x128.size a ≤ S8x64x1024x128.size a
  hwx0_5 : ∀ i : grid0.Coords, EltTy.bits .f32 = 32 ∨ (Rect.block (s := S8x64x1024x128) S8x8x128x128.size (cc0_transform_5 i) (hinb0_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg1) S128x8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x8x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1024x128 : Shape := ⟨3, ![512, 1024, 128]⟩
abbrev S1024x64x8x128 : Shape := ⟨4, ![1024, 64, 8, 128]⟩
abbrev S8x64x1024x1 : Shape := ⟨4, ![8, 64, 1024, 1]⟩
abbrev S128x128 : Shape := ⟨2, ![128, 128]⟩
abbrev S128 : Shape := ⟨1, ![128]⟩
abbrev S8x64x1024x128 : Shape := ⟨4, ![8, 64, 1024, 128]⟩
abbrev S_ : Shape := ⟨0, ![]⟩
abbrev S64x1024x1 : Shape := ⟨3, ![64, 1024, 1]⟩
abbrev S1x64x1024x1 : Shape := ⟨4, ![1, 64, 1024, 1]⟩
abbrev S1x1x1x128 : Shape := ⟨4, ![1, 1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S512x1024x128, .f32⟩
  | .hbm, ⟨1, _⟩ => ⟨S1024x64x8x128, .f32⟩
  | .hbm, ⟨2, _⟩ => ⟨S8x64x1024x1, .i32⟩
  | .hbm, ⟨3, _⟩ => ⟨S128x128, .f32⟩
  | .hbm, ⟨4, _⟩ => ⟨S128, .f32⟩
  | .hbm, ⟨5, _⟩ => ⟨S8x64x1024x1, .f32⟩
  | .hbm, ⟨6, _⟩ => ⟨S8x64x1024x128, .f32⟩
  | .hbm, ⟨7, _⟩ => ⟨S8x64x1024x128, .f32⟩
  | .hbm, ⟨8, _⟩ => ⟨S8x64x1024x128, .f32⟩
  | .hbm, ⟨9, _⟩ => ⟨S_, .f32⟩
  | .hbm, ⟨10, _⟩ => ⟨S64x1024x1, .f32⟩
  | .hbm, ⟨11, _⟩ => ⟨S1x64x1024x1, .f32⟩
  | .hbm, ⟨12, _⟩ => ⟨S_, .f32⟩
  | .hbm, ⟨13, _⟩ => ⟨S1x64x1024x1, .f32⟩
  | .hbm, ⟨14, _⟩ => ⟨S1x64x1024x1, .f32⟩
  | .hbm, ⟨15, _⟩ => ⟨S8x64x1024x128, .f32⟩
  | .hbm, ⟨16, _⟩ => ⟨S8x64x1024x128, .f32⟩
  | .hbm, ⟨17, _⟩ => ⟨S8x64x1024x128, .f32⟩
  | .hbm, ⟨18, _⟩ => ⟨S1x1x1x128, .f32⟩
  | .hbm, ⟨19, _⟩ => ⟨S8x64x1024x128, .f32⟩
  | .hbm, ⟨20, _⟩ => ⟨S8x64x1024x128, .f32⟩
  | .hbm, ⟨21, _⟩ => ⟨S512x1024x128, .f32⟩
  | .hbm, ⟨22, _⟩ => ⟨S512x1024x128, .f32⟩
  | _, _ => ⟨S512x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S1024x64x8x128_S8x64x1024x128_2_1_0_3 : S1024x64x8x128.Transposes [2, 1, 0, 3] S8x64x1024x128
  bcast_S8x64x1024x1_S8x64x1024x128_0_1_2_3 : S8x64x1024x1.BroadcastsInDim S8x64x1024x128 (![0, 1, 2, 3] : Fin 4 → Fin S8x64x1024x128.rank)
  reducesTo_S8x64x1024x1_S64x1024x1_d0 : S8x64x1024x1.ReducesTo [0] S64x1024x1
  h_S_ : 0 < S_.numel
  bcast_S64x1024x1_S1x64x1024x1_1_2_3 : S64x1024x1.BroadcastsInDim S1x64x1024x1 (![1, 2, 3] : Fin 3 → Fin S1x64x1024x1.rank)
  bcast_S_S1x64x1024x1 : S_.BroadcastsInDim S1x64x1024x1 (![] : Fin 0 → Fin S1x64x1024x1.rank)
  bcast_S1x64x1024x1_S8x64x1024x128_0_1_2_3 : S1x64x1024x1.BroadcastsInDim S8x64x1024x128 (![0, 1, 2, 3] : Fin 4 → Fin S8x64x1024x128.rank)
  bcast_S128_S1x1x1x128_3 : S128.BroadcastsInDim S1x1x1x128 (![3] : Fin 1 → Fin S1x1x1x128.rank)
  bcast_S1x1x1x128_S8x64x1024x128_0_1_2_3 : S1x1x1x128.BroadcastsInDim S8x64x1024x128 (![0, 1, 2, 3] : Fin 4 → Fin S8x64x1024x128.rank)
  shapeCasts_S8x64x1024x128_S512x1024x128 : S8x64x1024x128.ShapeCasts S512x1024x128
  dot_S8x64x1024x128_S128x128_S8x64x1024x128_3_1_012_0_n_n_wf : DotDims.WF S8x64x1024x128 S128x128 S8x64x1024x128 [3] [1] [0, 1, 2] [0] [] []

variable [Facts₀]

def dot_S8x64x1024x128_S128x128_S8x64x1024x128_3_1_012_0_n_n : DotDims S8x64x1024x128 S128x128 S8x64x1024x128 where
  lhsContracting := [3]
  rhsContracting := [1]
  lhsNonContracting := [0, 1, 2]
  rhsNonContracting := [0]
  lhsBatch := []
  rhsBatch := []
  wf := dot_S8x64x1024x128_S128x128_S8x64x1024x128_3_1_012_0_n_n_wf

class Facts : Prop extends Facts₀ where

variable [Facts]
-- ==== Proof.Spec.lean ====
/-
  The message averaged over the live agents, as mathematics.

  For every environment `b` and step `s` the agents `a` carry a liveness word; read signed it is a real number, and the
  count of live agents is their sum clamped below by one, a real number at least one. An agent's hidden row is scaled by its
  liveness over that count, mapped through the weight matrix and shifted by the bias. One arrangement scales by the
  product of the liveness with the reciprocal of the count, the other multiplies by the liveness and then divides by the
  count. The count being a nonzero real, division by it is multiplication by its reciprocal on every extended real, and
  multiplication of extended reals is associative: the two arrangements agree at every extended real, the infinities included.
-/
import Idealize.ShloMosaic.PureOps.Ideal
import Idealize.ShloMosaic.PureOps.Ideal.Laws
import Idealize.ShloMosaic.Lib.ValueIdx
import Idealize.ShloMosaic.Lib.IdealHost

noncomputable section

namespace Cert.AliveMean

open Idealize.ShloMosaic Idealize.ShloMosaic.ValueIdx

/-- A liveness word read signed, as an extended real. -/
abbrev live (w : BitVec 32) : EReal := ((w.toInt : ℝ) : EReal)

/-- A finite sum of reals taken on the extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The count of live agents among eight words, clamped below by one. -/
def clamped (z : Fin 8 → BitVec 32) : EReal := max (∑ a : Fin 8, live (z a)) 1

/-- It is a real number, at least one. -/
theorem clamped_real (z : Fin 8 → BitVec 32) : ∃ d : ℝ, 1 ≤ d ∧ clamped z = (d : EReal) := by
  refine ⟨max (∑ a : Fin 8, ((z a).toInt : ℝ)) 1, le_max_right _ _, ?_⟩
  unfold clamped
  rw [coe_sum, EReal.coe_strictMono.monotone.map_max, EReal.coe_one]

/-- Scaling by the liveness times the reciprocal of the count is multiplying by the liveness and dividing by the count,
    at every extended real `x`. -/
theorem scale_eq (x : EReal) (w : BitVec 32) (z : Fin 8 → BitVec 32) :
    x * (live w * Ideal.div 1 (clamped z)) = Ideal.div (x * live w) (clamped z) := by
  obtain ⟨d, hd, e⟩ := clamped_real z
  have hd0 : d ≠ 0 := ne_of_gt (lt_of_lt_of_le zero_lt_one hd)
  rw [e, Ideal.div_coe hd0, Ideal.div_coe hd0, one_mul, mul_assoc]

variable {nb ns : ℕ} (rnn : (⟨4, ![ns, nb, 8, 128]⟩ : Shape).Idx → EReal) (al : Fin 8 → Fin nb → Fin ns → BitVec 32)
  (wt : Fin 128 → Fin 128 → EReal) (bias : (⟨1, ![128]⟩ : Shape).Idx → EReal)

/-- The encoded mean message of agent `a` in environment `b` at step `s`, output feature `o`, scaling first: the
    hidden row `rnn (s, b, a, ·)` times the liveness over the clamped count, through `wt (·, o)`, plus the bias. Stated
    over any number of environments and steps, so that it reads a block and the whole array alike. -/
def mixScaled (a : Fin 8) (b : Fin nb) (s : Fin ns) (o : Fin 128) : EReal :=
  (∑ h : Fin 128, (rnn (ix4 s b a h) * (live (al a b s) * Ideal.div 1 (clamped fun a' => al a' b s))) * wt h o) + bias (ix1 o)

/-- The same, masking first and dividing after. -/
def mixDivided (a : Fin 8) (b : Fin nb) (s : Fin ns) (o : Fin 128) : EReal :=
  (∑ h : Fin 128, Ideal.div (rnn (ix4 s b a h) * live (al a b s)) (clamped fun a' => al a' b s) * wt h o) + bias (ix1 o)

theorem mixScaled_eq_mixDivided (a : Fin 8) (b : Fin nb) (s : Fin ns) (o : Fin 128) :
    mixScaled rnn al wt bias a b s o = mixDivided rnn al wt bias a b s o := by
  unfold mixScaled mixDivided
  refine congrArg (· + bias (ix1 o)) (Finset.sum_congr rfl fun h _ => ?_)
  rw [scale_eq]

/-- The message depends on the data only through the hidden row of `(s, b, a)`, the liveness words of `(·, b, s)`, column
    `o` of the weight and entry `o` of the bias: two sets of data (a block and the array it was cut from) that agree on
    those give the same message. -/
theorem mixScaled_congr {nb' ns' : ℕ} {rnn' : (⟨4, ![ns', nb', 8, 128]⟩ : Shape).Idx → EReal}
    {al' : Fin 8 → Fin nb' → Fin ns' → BitVec 32} {wt' : Fin 128 → Fin 128 → EReal} {bias' : (⟨1, ![128]⟩ : Shape).Idx → EReal}
    {a a' : Fin 8} {b : Fin nb} {s : Fin ns} {b' : Fin nb'} {s' : Fin ns'} {o o' : Fin 128} (ha : a = a') (ho : o = o')
    (hr : ∀ h, rnn (ix4 s b a h) = rnn' (ix4 s' b' a' h)) (hl : ∀ z, al z b s = al' z b' s')
    (hw : ∀ h, wt h o = wt' h o') (hb : bias (ix1 o) = bias' (ix1 o')) :
    mixScaled rnn al wt bias a b s o = mixScaled rnn' al' wt' bias' a' b' s' o' := by
  subst ha ho
  unfold mixScaled
  rw [hb, hl a, show (fun z => al z b s) = fun z => al' z b' s' from funext hl]
  exact congrArg (· + bias' (ix1 o)) (Finset.sum_congr rfl fun h _ => by rw [hr h, hw h])

/-- The result before the last reshape, as one function of five arrays: the observation in its [8, 64, 1024, 128] layout
    plus the encoded mean message (scaling first) of the hidden states `[1024, 64, 8, 128]`, the liveness words
    `[8, 64, 1024]`, the weight laid out `(hidden feature, output feature)` and the bias. -/
def wholeOut (obs4 : (⟨4, ![8, 64, 1024, 128]⟩ : Shape).Idx → EReal) (rnn : (⟨4, ![1024, 64, 8, 128]⟩ : Shape).Idx → EReal)
    (al3 : (⟨3, ![8, 64, 1024]⟩ : Shape).Idx → BitVec 32) (wt : (⟨2, ![128, 128]⟩ : Shape).Idx → EReal)
    (bias : (⟨1, ![128]⟩ : Shape).Idx → EReal) : (⟨4, ![8, 64, 1024, 128]⟩ : Shape).Idx → EReal := fun j =>
  obs4 j + mixScaled (nb := 64) (ns := 1024) rnn (fun a b s => al3 (ix3 a b s)) (fun h o => wt (ix2 h o)) bias (j 0) (j 1) (j 2) (j 3)

end Cert.AliveMean

end
-- ==== Proof.LibAxisLayout.lean ====
/-
  Rearrangements of rank-3 and rank-4 arrays read at an index, over any extents and any element type.

  A transpose that swaps the first and third of four axes; a float sum over the leading axis of three; an array with a
  leading unit axis spread over that axis; a trailing unit axis added, dropped, or spread over; and the three leading axes
  of four flattened into rows and folded back, row `(a * p + b) * q + s` holding position `(a, b, s)`. Each, read at an
  index written by its coordinates, is the operand at the evident index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.AxisLayout

open Idealize.ShloMosaic Idealize.ShloMosaic.ValueIdx

variable {α : Type}

/-- A rank-4 array with its first and third axes swapped: at `(a, b, s, k)` it is the operand at `(s, b, a, k)`. -/
theorem swap_apply {n0 n1 n2 n3 : ℕ} (x : (⟨4, ![n0, n1, n2, n3]⟩ : Shape).Idx → α)
    (h : (⟨4, ![n0, n1, n2, n3]⟩ : Shape).Transposes [2, 1, 0, 3] ⟨4, ![n2, n1, n0, n3]⟩)
    (a : Fin n2) (b : Fin n1) (s : Fin n0) (k : Fin n3) :
    transpose ⟨4, ![n2, n1, n0, n3]⟩ [2, 1, 0, 3] x h (ix4 a b s k) = x (ix4 s b a k) :=
  transpose_apply _ x h _ _ fun c => match c with | ⟨0, _⟩ => rfl | ⟨1, _⟩ => rfl | ⟨2, _⟩ => rfl | ⟨3, _⟩ => rfl

/-- A sum over the leading axis of an `[n, p, q]` array, at `(b, s)`: the sum over `a` of the operand at `(a, b, s)`. -/
theorem leadSum_apply {n p q : ℕ} (v : FVec Ideal ⟨3, ![n, p, q]⟩ .f32)
    (h : (⟨3, ![n, p, q]⟩ : Shape).Reduces [0] ⟨2, ![p, q]⟩) (hφ : FKind.Formats .f32)
    (hacc : (0x00000000#32 : BitVec 32) = 0x00000000#32) (b : Fin p) (s : Fin q) :
    multiReduction .add [0] ⟨2, ![p, q]⟩ v 0x00000000#32 h hφ hacc (ix2 b s) = ∑ a : Fin n, v (ix3 a b s) :=
  (Ideal.multiReduction_add_single v _ h hφ hacc (ix2 b s)).trans
    (Finset.sum_congr rfl fun a _ => congrArg v (funext fun c => Fin.ext (by
      match c with | ⟨0, _⟩ => rfl | ⟨1, _⟩ => rfl | ⟨2, _⟩ => rfl)))

/-- A `[1, p, q]` array spread over a leading axis of `n`: at `(a, b, s)` it is the operand at `(0, b, s)`. -/
theorem spreadLead_apply {n p q : ℕ} (hp : p ≠ 1) (hq : q ≠ 1) (x : (⟨3, ![1, p, q]⟩ : Shape).Idx → α)
    (h : (⟨3, ![1, p, q]⟩ : Shape).Broadcasts ⟨3, ![n, p, q]⟩) (a : Fin n) (b : Fin p) (s : Fin q) :
    broadcastTo ⟨3, ![n, p, q]⟩ x h (ix3 a b s) = x (ix3 (0 : Fin 1) b s) := by
  refine broadcastTo_apply x h (ix3 a b s) (ix3 (0 : Fin 1) b s) fun ax => ?_
  match ax with
  | ⟨0, _⟩ => rfl
  | ⟨1, _⟩ => show b.val = if p = 1 then 0 else b.val; rw [if_neg hp]
  | ⟨2, _⟩ => show s.val = if q = 1 then 0 else s.val; rw [if_neg hq]

/-- An `[n, p, q]` array given a trailing unit axis: at `(a, b, s, u)` it is the operand at `(a, b, s)`. -/
theorem unitLast_apply {n p q : ℕ} (x : (⟨3, ![n, p, q]⟩ : Shape).Idx → α)
    (h : (⟨3, ![n, p, q]⟩ : Shape).ShapeCasts ⟨4, ![n, p, q, 1]⟩) (a : Fin n) (b : Fin p) (s : Fin q) (u : Fin 1) :
    shapeCast ⟨4, ![n, p, q, 1]⟩ x h (ix4 a b s u) = x (ix3 a b s) :=
  shapeCast_apply x h _ _ (by
    have hu : u.val = 0 := by omega
    rw [Shape.rowMajor_val_four, Shape.rowMajor_val_three]
    show (a.val * p + b.val) * q + s.val = ((a.val * p + b.val) * q + s.val) * 1 + u.val
    rw [hu, Nat.mul_one, Nat.add_zero])

/-- An `[n, p, q, 1]` array without its trailing unit axis: at `(a, b, s)` it is the operand at `(a, b, s, 0)`. -/
theorem dropUnitLast_apply {n p q : ℕ} (x : (⟨4, ![n, p, q, 1]⟩ : Shape).Idx → α)
    (h : (⟨4, ![n, p, q, 1]⟩ : Shape).ShapeCasts ⟨3, ![n, p, q]⟩) (a : Fin n) (b : Fin p) (s : Fin q) :
    shapeCast ⟨3, ![n, p, q]⟩ x h (ix3 a b s) = x (ix4 a b s (0 : Fin 1)) :=
  shapeCast_apply x h _ _ (by
    rw [Shape.rowMajor_val_four, Shape.rowMajor_val_three]
    show ((a.val * p + b.val) * q + s.val) * 1 + 0 = (a.val * p + b.val) * q + s.val
    rw [Nat.mul_one, Nat.add_zero])

/-- An `[n, p, q, 1]` array spread over a trailing axis of `k`: at `(a, b, s, j)` it is the operand at `(a, b, s, 0)`. -/
theorem spreadLast_apply {n p q k : ℕ} (hn : n ≠ 1) (hp : p ≠ 1) (hq : q ≠ 1) (x : (⟨4, ![n, p, q, 1]⟩ : Shape).Idx → α)
    (h : (⟨4, ![n, p, q, 1]⟩ : Shape).Broadcasts ⟨4, ![n, p, q, k]⟩) (a : Fin n) (b : Fin p) (s : Fin q) (j : Fin k) :
    broadcastTo ⟨4, ![n, p, q, k]⟩ x h (ix4 a b s j) = x (ix4 a b s (0 : Fin 1)) := by
  refine broadcastTo_apply x h (ix4 a b s j) (ix4 a b s (0 : Fin 1)) fun ax => ?_
  match ax with
  | ⟨0, _⟩ => show a.val = if n = 1 then 0 else a.val; rw [if_neg hn]
  | ⟨1, _⟩ => show b.val = if p = 1 then 0 else b.val; rw [if_neg hp]
  | ⟨2, _⟩ => show s.val = if q = 1 then 0 else s.val; rw [if_neg hq]
  | ⟨3, _⟩ => rfl

/-- An `[n, p, q, k]` array with its three leading axes flattened into `R` rows: at the row `r` that holds position
    `(a, b, s)` — `r = (a * p + b) * q + s` — and column `j`, it is the operand at `(a, b, s, j)`. -/
theorem flatten_apply {n p q k R : ℕ} (x : (⟨4, ![n, p, q, k]⟩ : Shape).Idx → α)
    (h : (⟨4, ![n, p, q, k]⟩ : Shape).ShapeCasts ⟨2, ![R, k]⟩) (a : Fin n) (b : Fin p) (s : Fin q) (j : Fin k)
    (r : Fin R) (hr : r.val = (a.val * p + b.val) * q + s.val) :
    shapeCast ⟨2, ![R, k]⟩ x h (ix2 r j) = x (ix4 a b s j) :=
  shapeCast_apply x h _ _ (by
    rw [Shape.rowMajor_val_four, Shape.rowMajor_val_two]
    show ((a.val * p + b.val) * q + s.val) * k + j.val = r.val * k + j.val
    rw [hr])

/-- The flattened array folded back: at `(a, b, s, j)` it is the operand at that row `r`, column `j`. -/
theorem unflatten_apply {n p q k R : ℕ} (x : (⟨2, ![R, k]⟩ : Shape).Idx → α)
    (h : (⟨2, ![R, k]⟩ : Shape).ShapeCasts ⟨4, ![n, p, q, k]⟩) (a : Fin n) (b : Fin p) (s : Fin q) (j : Fin k)
    (r : Fin R) (hr : r.val = (a.val * p + b.val) * q + s.val) :
    shapeCast ⟨4, ![n, p, q, k]⟩ x h (ix4 a b s j) = x (ix2 r j) :=
  shapeCast_apply x h _ _ (by
    rw [Shape.rowMajor_val_four, Shape.rowMajor_val_two]
    show r.val * k + j.val = ((a.val * p + b.val) * q + s.val) * k + j.val
    rw [hr])

end Cert.AxisLayout

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Payload.lean ====
/-
  What the body stores at one position of its block.

  At position `(a, b, s)` and feature `o` of the [8, 8, 128, 128] block the body stores the observation there plus the
  encoded mean message of agent `a`: the hidden row `(s, b, a, ·)` of the block's hidden slab scaled by the agent's
  liveness over the clamped count of the live agents of `(b, s)`, through the weight block, plus the bias. The rounding
  to the narrow float before the product is the identity on the extended reals, the product into the zero accumulator is
  the plain sum over the 128 hidden features, and every rearrangement reads its operand at the evident index.
-/
import proofs.«120451_j42545946034942_2_alg».proof.Proof.Gen.KernelIdeal.Skeleton
import proofs.«120451_j42545946034942_2_alg».proof.Proof.Spec
import proofs.«120451_j42545946034942_2_alg».proof.Proof.LibAxisLayout
import proofs.«120451_j42545946034942_2_alg».proof.Proof.LibPlainMatmul

noncomputable section

namespace Cert.AliveMean

open Cert.AxisLayout Idealize.ShloMosaic Idealize.ShloMosaic.ValueIdx Cert.KernelIdeal Cert.KernelIdeal.Gen

/-- The row of the flattened block that holds position `(a, b, s)`. -/
abbrev blockRow (a : Fin 8) (b : Fin 8) (s : Fin 128) : Fin 8192 := ⟨(a.val * 8 + b.val) * 128 + s.val, by omega⟩

/-- The block's matrix product into the zero accumulator, at row `q` and column `o`: the sum over the shared axis. -/
theorem prod_apply (A : FVec Ideal S8192x128 .bf16) (B : FVec Ideal S128x128 .bf16) (q : Fin 8192) (o : Fin 128) :
    matmul dot_S8192x128_S128x128_S8192x128_1_0_0_1_n_n none A B (constant S8192x128 .f32 0x00000000#32) (ix2 q o)
      = ∑ c : Fin 128, A (ix2 q c) * B (ix2 c o) :=
  Cert.PointConv.plainMatmul_zero_apply Facts₀.dot_S8192x128_S128x128_S8192x128_1_0_0_1_n_n_wf none A B q o

/-- The stored value at `(a, b, s, o)`, over explicit coordinates. -/
theorem pay_coords (x0 : Vec Ideal S128x8x8x128 .f32) (x1 : Vec Ideal S8x8x128 .i32) (x3 : Vec Ideal S128x128 .bf16)
    (x4 : Vec Ideal S128 .f32) (x2 : Vec Ideal S8x8x128x128 .f32) (a : Fin 8) (b : Fin 8) (s : Fin 128) (o : Fin 128) :
    k0_pay1 (F := Ideal) x0 x1 x3 x4 x2 (ix4 a b s o)
      = x2 (ix4 a b s o) + mixScaled (nb := 8) (ns := 128) x0 (fun a b s => x1 (ix3 a b s)) (fun h o => x3 (ix2 h o)) x4 a b s o := by
  unfold k0_pay1 mixScaled
  dsimp only
  rw [addf_apply, shapeCast_self]
  refine congrArg (x2 (ix4 a b s o) + ·) ?_
  rw [unflatten_apply _ _ a b s o (blockRow a b s) rfl, addf_apply, prod_apply, broadcastTo_1b_ab_apply, shapeCast_a_1a_apply]
  refine congrArg (· + x4 (ix1 o)) (Finset.sum_congr rfl fun h _ => ?_)
  rw [truncf_apply, flatten_apply _ _ a b s h (blockRow a b s) rfl, mulf_apply, swap_apply, shapeCast_self,
    spreadLast_apply (by decide) (by decide) (by decide), unitLast_apply, mulf_apply, sitofp_apply, shapeCast_self,
    spreadLead_apply (by decide) (by decide), divf_apply, broadcast_apply, maximumf_apply, broadcast_apply,
    shapeCast_ab_1ab_apply, leadSum_apply, Ideal.ofBits_def, Ideal.ofBits_one_f32]
  rfl

/-- The same at any index of the block, by its coordinates. -/
theorem pay_apply (x0 : Vec Ideal S128x8x8x128 .f32) (x1 : Vec Ideal S8x8x128 .i32) (x3 : Vec Ideal S128x128 .bf16)
    (x4 : Vec Ideal S128 .f32) (x2 : Vec Ideal S8x8x128x128 .f32) (y : S8x8x128x128.Idx) :
    k0_pay1 (F := Ideal) x0 x1 x3 x4 x2 y
      = x2 y + mixScaled (nb := 8) (ns := 128) x0 (fun a b s => x1 (ix3 a b s)) (fun h o => x3 (ix2 h o)) x4 (y 0) (y 1) (y 2) (y 3) := by
  have hy := eq_ix4 y
  calc k0_pay1 (F := Ideal) x0 x1 x3 x4 x2 y
      = k0_pay1 (F := Ideal) x0 x1 x3 x4 x2 (ix4 (y 0) (y 1) (y 2) (y 3)) := congrArg _ hy
    _ = _ := pay_coords x0 x1 x3 x4 x2 (y 0) (y 1) (y 2) (y 3)
    _ = _ := congrArg (fun z => x2 z + mixScaled (nb := 8) (ns := 128) x0 (fun a b s => x1 (ix3 a b s))
        (fun h o => x3 (ix2 h o)) x4 (y 0) (y 1) (y 2) (y 3)) hy.symm

end Cert.AliveMean

end
-- ==== Proof.Blocks.lean ====
/-
  From the blocks to the whole result array.

  The grid has 8 × 8 points; point (si, bi) works on steps 128·si … 128·si + 127 and environments 8·bi … 8·bi + 7, all
  agents and all features. An element of a window's block sits in its array at block index × block extent + the
  coordinate inside the block, axis by axis; the hidden states' block has the step axis first and the agent axis third,
  the weight and the bias are whole. So what a point stores at a position of its block — the observation there plus the
  encoded mean message over the block's data — is the same expression over the whole arrays at the position's place in
  the array: the message reads only the hidden row of that (step, environment, agent), the liveness words of that
  (environment, step), one weight column and one bias entry, and all of these lie in the point's blocks. The output blocks
  tile the array (the block of environment b / 8 and step s / 128 holds position (a, b, s)), so the array ends as one
  function of the arrays the region finds.
-/
import proofs.«120451_j42545946034942_2_alg».proof.Proof.Gen.KernelIdeal.Frame
import proofs.«120451_j42545946034942_2_alg».proof.Proof.Payload
import Idealize.ShloMosaic.Lib.Pipeline.Value
import Idealize.ShloMosaic.Lib.Tactic

noncomputable section

namespace Cert.AliveMean

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The zero offsets of a whole-block access, however many axes. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps, decided over the 64 grid points: which block of each input the point of an output block reads. -/
theorem idx_facts : ∀ t : Fin cfg0.N,
    win0_0.index t (0 : Fin 4) = win0_5.index t (2 : Fin 4) ∧ win0_0.index t (1 : Fin 4) = win0_5.index t (1 : Fin 4)
    ∧ win0_0.index t (2 : Fin 4) = 0 ∧ win0_0.index t (3 : Fin 4) = 0
    ∧ win0_1.index t (0 : Fin 3) = 0 ∧ win0_1.index t (1 : Fin 3) = win0_5.index t (1 : Fin 4)
    ∧ win0_1.index t (2 : Fin 3) = win0_5.index t (2 : Fin 4)
    ∧ win0_2.index t (0 : Fin 4) = 0 ∧ win0_2.index t (1 : Fin 4) = win0_5.index t (1 : Fin 4)
    ∧ win0_2.index t (2 : Fin 4) = win0_5.index t (2 : Fin 4) ∧ win0_2.index t (3 : Fin 4) = 0
    ∧ win0_3.index t (0 : Fin 2) = 0 ∧ win0_3.index t (1 : Fin 2) = 0
    ∧ win0_4.index t (0 : Fin 1) = 0
    ∧ win0_5.index t (0 : Fin 4) = 0 ∧ win0_5.index t (3 : Fin 4) = 0
    ∧ win0_5.index t (1 : Fin 4) ≤ 7 ∧ win0_5.index t (2 : Fin 4) ≤ 7 :=
  (by decide +kernel : ∀ t : Fin grid0.N, _)

/-- Every (environment block, step block) is some point's. -/
theorem idx_onto : ∀ (q1 : Fin 8) (q2 : Fin 8), ∃ t : Fin cfg0.N, win0_5.index t = ![0, q1.val, q2.val, 0] :=
  (by decide +kernel : ∀ (q1 : Fin 8) (q2 : Fin 8), ∃ t : Fin grid0.N, win0_5.index t = ![0, q1.val, q2.val, 0])

/-- An element of the hidden window's block at point `t` is the array's element at block index × block extent + the
    coordinate inside the block, axis by axis. -/
theorem rnn_block (c : Dev nD) (t : Fin cfg0.N) (x : S128x8x8x128.Idx) (k : S1024x64x8x128.Idx)
    (h0 : (k 0).val = win0_0.index t 0 * 128 + (x 0).val) (h1 : (k 1).val = win0_0.index t 1 * 8 + (x 1).val)
    (h2 : (k 2).val = win0_0.index t 2 * 8 + (x 2).val) (h3 : (k 3).val = win0_0.index t 3 * 128 + (x 3).val) :
    (iblk m c 0 t : Vec Ideal S128x8x8x128 .f32) x = (V m c main_arg1 : S1024x64x8x128.Idx → EReal) k := by
  unfold iblk
  rw [View.read_apply]
  show V m c main_arg1 _ = V m c main_arg1 _
  refine congrArg (V m c main_arg1) (funext fun a => Fin.ext ?_)
  match a with
  | ⟨0, _⟩ => show win0_0.index t 0 * 128 + 1 * (x 0).val = (k 0).val; omega
  | ⟨1, _⟩ => show win0_0.index t 1 * 8 + 1 * (x 1).val = (k 1).val; omega
  | ⟨2, _⟩ => show win0_0.index t 2 * 8 + 1 * (x 2).val = (k 2).val; omega
  | ⟨3, _⟩ => show win0_0.index t 3 * 128 + 1 * (x 3).val = (k 3).val; omega

/-- The same for the liveness window's block. -/
theorem alive_block (c : Dev nD) (t : Fin cfg0.N) (x : S8x8x128.Idx) (k : S8x64x1024.Idx)
    (h0 : (k 0).val = win0_1.index t 0 * 8 + (x 0).val) (h1 : (k 1).val = win0_1.index t 1 * 8 + (x 1).val)
    (h2 : (k 2).val = win0_1.index t 2 * 128 + (x 2).val) :
    (iblk m c 1 t : Vec Ideal S8x8x128 .i32) x = (V m c main_v1 : S8x64x1024.Idx → BitVec 32) k := by
  unfold iblk
  rw [View.read_apply]
  show V m c main_v1 _ = V m c main_v1 _
  refine congrArg (V m c main_v1) (funext fun a => Fin.ext ?_)
  match a with
  | ⟨0, _⟩ => show win0_1.index t 0 * 8 + 1 * (x 0).val = (k 0).val; omega
  | ⟨1, _⟩ => show win0_1.index t 1 * 8 + 1 * (x 1).val = (k 1).val; omega
  | ⟨2, _⟩ => show win0_1.index t 2 * 128 + 1 * (x 2).val = (k 2).val; omega

/-- The same for the observation window's block. -/
theorem obs_block (c : Dev nD) (t : Fin cfg0.N) (x : S8x8x128x128.Idx) (k : S8x64x1024x128.Idx)
    (h0 : (k 0).val = win0_2.index t 0 * 8 + (x 0).val) (h1 : (k 1).val = win0_2.index t 1 * 8 + (x 1).val)
    (h2 : (k 2).val = win0_2.index t 2 * 128 + (x 2).val) (h3 : (k 3).val = win0_2.index t 3 * 128 + (x 3).val) :
    (iblk m c 2 t : Vec Ideal S8x8x128x128 .f32) x = (V m c main_v0 : S8x64x1024x128.Idx → EReal) k := by
  unfold iblk
  rw [View.read_apply]
  show V m c main_v0 _ = V m c main_v0 _
  refine congrArg (V m c main_v0) (funext fun a => Fin.ext ?_)
  match a with
  | ⟨0, _⟩ => show win0_2.index t 0 * 8 + 1 * (x 0).val = (k 0).val; omega
  | ⟨1, _⟩ => show win0_2.index t 1 * 8 + 1 * (x 1).val = (k 1).val; omega
  | ⟨2, _⟩ => show win0_2.index t 2 * 128 + 1 * (x 2).val = (k 2).val; omega
  | ⟨3, _⟩ => show win0_2.index t 3 * 128 + 1 * (x 3).val = (k 3).val; omega

/-- The same for the weight window's block. -/
theorem weight_block (c : Dev nD) (t : Fin cfg0.N) (x : S128x128.Idx) (k : S128x128.Idx)
    (h0 : (k 0).val = win0_3.index t 0 * 128 + (x 0).val) (h1 : (k 1).val = win0_3.index t 1 * 128 + (x 1).val) :
    (iblk m c 3 t : Vec Ideal S128x128 .bf16) x = (V m c main_v3 : S128x128.Idx → EReal) k := by
  unfold iblk
  rw [View.read_apply]
  show V m c main_v3 _ = V m c main_v3 _
  refine congrArg (V m c main_v3) (funext fun a => Fin.ext ?_)
  match a with
  | ⟨0, _⟩ => show win0_3.index t 0 * 128 + 1 * (x 0).val = (k 0).val; omega
  | ⟨1, _⟩ => show win0_3.index t 1 * 128 + 1 * (x 1).val = (k 1).val; omega

/-- The same for the bias window's block. -/
theorem bias_block (c : Dev nD) (t : Fin cfg0.N) (x : S128.Idx) (k : S128.Idx)
    (h0 : (k 0).val = win0_4.index t 0 * 128 + (x 0).val) :
    (iblk m c 4 t : Vec Ideal S128 .f32) x = (V m c main_arg4 : S128.Idx → EReal) k := by
  unfold iblk
  rw [View.read_apply]
  show V m c main_arg4 _ = V m c main_arg4 _
  refine congrArg (V m c main_arg4) (funext fun a => Fin.ext ?_)
  match a with
  | ⟨0, _⟩ => show win0_4.index t 0 * 128 + 1 * (x 0).val = (k 0).val; omega

/-- Where an element of the output window's block at point `t` sits in the array. -/
theorem out_emb (t : Fin cfg0.N) (y : S8x8x128x128.Idx) :
    ((((cfg0.win 5).blk t).view.emb y : S8x64x1024x128.Idx) 0).val = win0_5.index t 0 * 8 + (y 0).val
    ∧ ((((cfg0.win 5).blk t).view.emb y : S8x64x1024x128.Idx) 1).val = win0_5.index t 1 * 8 + (y 1).val
    ∧ ((((cfg0.win 5).blk t).view.emb y : S8x64x1024x128.Idx) 2).val = win0_5.index t 2 * 128 + (y 2).val
    ∧ ((((cfg0.win 5).blk t).view.emb y : S8x64x1024x128.Idx) 3).val = win0_5.index t 3 * 128 + (y 3).val :=
  ⟨by show win0_5.index t 0 * 8 + 1 * (y 0).val = _; omega, by show win0_5.index t 1 * 8 + 1 * (y 1).val = _; omega,
    by show win0_5.index t 2 * 128 + 1 * (y 2).val = _; omega, by show win0_5.index t 3 * 128 + 1 * (y 3).val = _; omega⟩

/-- The region's result array as one function of the arrays the region finds. -/
abbrev regionOut (c : Dev nD) : S8x64x1024x128.Idx → EReal :=
  wholeOut (V m c main_v0) (V m c main_arg1) (V m c main_v1) (V m c main_v3) (V m c main_arg4)

/-- What point `t` writes back is block `t` of `regionOut`. -/
theorem flushed_eq (c : Dev nD) (t : Fin cfg0.N) :
    (dats m 0 c).flushed 5 t = ((cfg0.win 5).blk t).view.read (Elt Ideal) (regionOut m c) := by
  show (cfg0.win 5).cut (grid0.coords t) ((dats m 0 c).after 5 t) = _
  rw [after0_5]
  unfold out0_5
  rw [View.canon_unit_zero hz4]
  simp only [View.ld_unit_zero (S := S128x8x8x128) hz4, View.ld_unit_zero (S := S8x8x128) hz3,
    View.ld_unit_zero (S := S128x128) hz2, View.ld_unit_zero (S := S128) hz1, View.ld_unit_zero (S := S8x8x128x128) hz4]
  funext y
  rw [View.read_apply]
  show k0_pay1 (F := Ideal) (iblk m c 0 t) (iblk m c 1 t) (iblk m c 3 t) (iblk m c 4 t) (iblk m c 2 t) y
    = regionOut m c (((cfg0.win 5).blk t).view.emb y)
  refine (pay_apply _ _ _ _ _ y).trans ?_
  obtain ⟨e00, e01, e02, e03, e10, e11, e12, e20, e21, e22, e23, e30, e31, e40, e50, e53, -, -⟩ := idx_facts t
  obtain ⟨i0, i1, i2, i3⟩ := out_emb t y
  have j0 : ((((cfg0.win 5).blk t).view.emb y : S8x64x1024x128.Idx) 0).val = (y 0).val := by rw [i0, e50]; omega
  have j3 : ((((cfg0.win 5).blk t).view.emb y : S8x64x1024x128.Idx) 3).val = (y 3).val := by rw [i3, e53]; omega
  refine congrArg₂ (· + ·) ?_ ?_
  · exact obs_block m c t y _ (by rw [e20]; exact j0.trans (show (y 0).val = 0 * 8 + (y 0).val by omega))
      (by rw [e21]; exact i1) (by rw [e22]; exact i2)
      (by rw [e23]; exact j3.trans (show (y 3).val = 0 * 128 + (y 3).val by omega))
  · refine mixScaled_congr _ _ _ _ (Fin.ext j0.symm) (Fin.ext j3.symm) (fun h => ?_) (fun z => ?_) (fun h => ?_) ?_
    · exact rnn_block m c t _ _ (by rw [e00]; exact i2) (by rw [e01]; exact i1)
        (by rw [e02]; exact j0.trans (show (y 0).val = 0 * 8 + (y 0).val by omega))
        (by rw [e03]; show h.val = 0 * 128 + h.val; omega)
    · exact alive_block m c t _ _ (by rw [e10]; show z.val = 0 * 8 + z.val; omega) (by rw [e11]; exact i1)
        (by rw [e12]; exact i2)
    · exact weight_block m c t _ _ (by rw [e30]; show h.val = 0 * 128 + h.val; omega)
        (by rw [e31]; exact j3.trans (show (y 3).val = 0 * 128 + (y 3).val by omega))
    · exact bias_block m c t _ _ (by rw [e40]; exact j3.trans (show (y 3).val = 0 * 128 + (y 3).val by omega))

/-- An index of the array is in point `t`'s block iff each coordinate is in the block's range on its axis. -/
theorem mem_blk (t : Fin cfg0.N) (i : S8x64x1024x128.Idx) :
    i ∈ ((cfg0.win 5).blk t).view.set ↔ ∀ a : Fin 4, win0_5.index t a * S8x8x128x128.size a ≤ (i a).val
      ∧ (i a).val < win0_5.index t a * S8x8x128x128.size a + S8x8x128x128.size a := by
  show i ∈ ((View.whole main_v4).slice (win0_5.rect t)).set ↔ _
  rw [View.set_slice_whole, Rect.mem_set_unit]
  exact Iff.rfl

/-- Every index of the result array is in some point's block: the point of environment block `b / 8` and step block
    `s / 128`. -/
theorem covered (i : S8x64x1024x128.Idx) :
    ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 1024 := (i 2).isLt
  have hi3 : (i 3).val < 128 := (i 3).isLt
  obtain ⟨t, ht⟩ := idx_onto ⟨(i 1).val / 8, by omega⟩ ⟨(i 2).val / 128, by omega⟩
  have q0 : win0_5.index t (0 : Fin 4) = 0 := congrFun ht 0
  have q1 : win0_5.index t (1 : Fin 4) = (i 1).val / 8 := congrFun ht 1
  have q2 : win0_5.index t (2 : Fin 4) = (i 2).val / 128 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 8 ≤ (i 0).val ∧ (i 0).val < win0_5.index t (0 : Fin 4) * 8 + 8; omega
  | ⟨1, _⟩ => show win0_5.index t (1 : Fin 4) * 8 ≤ (i 1).val ∧ (i 1).val < win0_5.index t (1 : Fin 4) * 8 + 8; omega
  | ⟨2, _⟩ => show win0_5.index t (2 : Fin 4) * 128 ≤ (i 2).val ∧ (i 2).val < win0_5.index t (2 : Fin 4) * 128 + 128; omega
  | ⟨3, _⟩ => show win0_5.index t (3 : Fin 4) * 128 ≤ (i 3).val ∧ (i 3).val < win0_5.index t (3 : Fin 4) * 128 + 128; omega

/-- The region's result array after the run is `regionOut`. -/
theorem final (c : Dev nD) : (dats m 0 c).arrAt 5 cfg0.N = regionOut m c :=
  (dats m 0 c).arrAt_eq_of_cover 5 (regionOut m c) (fun t _ => flushed_eq m c t) covered

end Cert.AliveMean

end
-- ==== Proof.HostSide.lean ====
/-
  The arrays the region finds and what follows it.

  Before the region the observation [512, 1024, 128] is relaid as [8, 64, 1024, 128], the liveness words lose their
  trailing unit axis, and the weight matrix is transposed (and rounded to the narrow float, the identity on the extended
  reals); the hidden states and the bias reach the region as launched. After the region its result array is relaid as
  [512, 1024, 128]: that is the program's result.
-/
import proofs.«120451_j42545946034942_2_alg».proof.Proof.Gen.KernelIdeal.Frame
import Idealize.ShloMosaic.Lib.StableHlo.Run
import Idealize.ShloMosaic.Lib.Pipeline.Value
import Idealize.ShloMosaic.PureOps.Ideal

noncomputable section

namespace Cert.AliveMean

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ)

/-- The observation window's array is the observation argument relaid. -/
theorem V_obs (c : Dev nD) : (V m c main_v0 : S8x64x1024x128.Idx → EReal)
    = shapeCast S8x64x1024x128 (m ((c : Thread nD τ).loc main_arg0)) shapeCasts_S512x1024x128_S8x64x1024x128 := by
  show StableHlo.after hostOps0 (fun b => m (c, b)) (Proc.devRef .tc main_v0) = _
  after_results <;> rfl

/-- The liveness window's array is the liveness argument without its unit axis. -/
theorem V_alive (c : Dev nD) : (V m c main_v1 : S8x64x1024.Idx → BitVec 32)
    = shapeCast S8x64x1024 (m ((c : Thread nD τ).loc main_arg2)) shapeCasts_S8x64x1024x1_S8x64x1024 := by
  show StableHlo.after hostOps0 (fun b => m (c, b)) (Proc.devRef .tc main_v1) = _
  after_results <;> rfl

/-- The weight window's array is the weight argument transposed. -/
theorem V_weight (c : Dev nD) : (V m c main_v3 : S128x128.Idx → EReal)
    = truncf (F := Ideal) .bf16 (transpose S128x128 [1, 0] (m ((c : Thread nD τ).loc main_arg3)) transposes_S128x128_S128x128_1_0) bitsLt_bf16_f32 := by
  show StableHlo.after hostOps0 (fun b => m (c, b)) (Proc.devRef .tc main_v3) = _
  after_results <;> rfl

/-- The program's result is the region's result array relaid: the one line after the region reads that array, which the
    region's other arrays and buffers do not disturb. -/
theorem tail_result (c : Dev nD) : Pipeline.afterTail₀ cfgs (dats m) 0 (V0 m) [hostOps1] c main_v5
    = shapeCast S512x1024x128 ((dats m 0 c).arrAt 5 cfg0.N) shapeCasts_S8x64x1024x128_S512x1024x128 := by
  unfold Pipeline.afterTail₀
  show StableHlo.after hostOps1 _ (Proc.devRef .tc main_v5) = _
  after_results
  have e := Pipeline.withArrays_arr spec0 launch0.win.arr_inj c (V0 m c) (fun w => (dats m 0 c).arrAt w cfg0.N) 5
  exact congrArg (fun X : S8x64x1024x128.Idx → EReal => shapeCast S512x1024x128 X shapeCasts_S8x64x1024x128_S512x1024x128) e

end Cert.AliveMean

end
-- ==== Proof.RefValue.lean ====
/-
  What the reference computes, at an index.

  Before the final reshape and the addition of the observation the reference holds, at agent `a`, environment `b`, step
  `s` and output feature `o`, the encoded mean message in the arrangement that masks first and divides after: the
  hidden row `(s, b, a, ·)` times the agent's liveness, divided by the clamped count of the live agents of `(b, s)`,
  contracted with row `o` of the weight matrix, plus the bias. The weight is read as `wt (h, o) = W (o, h)`.
-/
import proofs.«120451_j42545946034942_2_alg».proof.Proof.Gen.ReferenceIdeal.Read
import proofs.«120451_j42545946034942_2_alg».proof.Proof.Spec

noncomputable section

namespace Cert.AliveMean

open Idealize.ShloMosaic Idealize.ShloMosaic.ValueIdx Cert.ReferenceIdeal Cert.ReferenceIdeal.Read

/-- The reference's message stage at `(a, b, s, o)`, over explicit coordinates. -/
theorem ref_coords (x1 : (⟨S1024x64x8x128, .f32⟩ : BufTy).Contents (Elt Ideal)) (x2 : (⟨S8x64x1024x1, .i32⟩ : BufTy).Contents (Elt Ideal))
    (x3 : (⟨S128x128, .f32⟩ : BufTy).Contents (Elt Ideal)) (x4 : (⟨S128, .f32⟩ : BufTy).Contents (Elt Ideal))
    (a : Fin 8) (b : Fin 64) (s : Fin 1024) (o : Fin 128) :
    val_main_v13 (F := Ideal) x1 x2 x3 x4 (ix4 a b s o)
      = mixDivided (nb := 64) (ns := 1024) x1 (fun a b s => x2 (ix4 a b s (0 : Fin 1))) (fun h o => x3 (ix2 o h)) x4 a b s o := by
  have e12 : idx_main_v11 (idx_main_v12 (ix4 a b s o)) = ix1 o :=
    funext fun c => Fin.ext (by match c with | ⟨0, _⟩ => rfl)
  have el : ∀ k : Fin 128, lidx_main_v10 (ix4 a b s o) k = ix4 a b s k := fun k =>
    funext fun c => Fin.ext (by match c with | ⟨0, _⟩ => rfl | ⟨1, _⟩ => rfl | ⟨2, _⟩ => rfl | ⟨3, _⟩ => rfl)
  have er : ∀ k : Fin 128, ridx_main_v10 (ix4 a b s o) k = ix2 o k := fun k =>
    funext fun c => Fin.ext (by match c with | ⟨0, _⟩ => rfl | ⟨1, _⟩ => rfl)
  have e1 : ∀ k : Fin 128, idx_main_v1 (ix4 a b s k) = ix4 s b a k := fun k =>
    funext fun c => Fin.ext (by match c with | ⟨0, _⟩ => rfl | ⟨1, _⟩ => rfl | ⟨2, _⟩ => rfl | ⟨3, _⟩ => rfl)
  have e2 : ∀ k : Fin 128, idx_main_v2 (ix4 a b s k) = ix4 a b s (0 : Fin 1) := fun k =>
    funext fun c => Fin.ext (by match c with | ⟨0, _⟩ => rfl | ⟨1, _⟩ => rfl | ⟨2, _⟩ => rfl | ⟨3, _⟩ => rfl)
  have e8 : ∀ k : Fin 128, idx_main_v5 (idx_main_v8 (ix4 a b s k)) = ix3 b s (0 : Fin 1) := fun k =>
    funext fun c => Fin.ext (by match c with | ⟨0, _⟩ => rfl | ⟨1, _⟩ => rfl | ⟨2, _⟩ => rfl)
  have e4 : ∀ a' : Fin 8, idx_main_v4 (ix3 b s (0 : Fin 1)) a' = ix4 a' b s (0 : Fin 1) := fun a' =>
    funext fun c => Fin.ext (by match c with | ⟨0, _⟩ => rfl | ⟨1, _⟩ => rfl | ⟨2, _⟩ => rfl | ⟨3, _⟩ => rfl)
  rw [val_main_v13_apply, val_main_v10_apply, val_main_v12_apply, val_main_v11_apply, e12]
  unfold mixDivided
  refine congrArg (· + x4 (ix1 o)) (Finset.sum_congr rfl fun k _ => ?_)
  rw [el, er, val_main_v9_apply, val_main_v3_apply, val_main_v1_apply, val_main_v2_apply, val_main_v0_apply,
    val_main_v8_apply, val_main_v7_apply, val_main_v5_apply, val_main_v4_apply, val_main_v6_apply, val_main_cst_0_apply,
    val_main_cst_apply, e1, e2, e8]
  simp only [val_main_v0_apply, e4, Ideal.ofBits_def, Ideal.ofBits_zero_f32, Ideal.ofBits_one_f32, zero_add]
  rfl

/-- The same at any index, by its coordinates. -/
theorem ref_apply (x1 : (⟨S1024x64x8x128, .f32⟩ : BufTy).Contents (Elt Ideal)) (x2 : (⟨S8x64x1024x1, .i32⟩ : BufTy).Contents (Elt Ideal))
    (x3 : (⟨S128x128, .f32⟩ : BufTy).Contents (Elt Ideal)) (x4 : (⟨S128, .f32⟩ : BufTy).Contents (Elt Ideal)) (j : S8x64x1024x128.Idx) :
    val_main_v13 (F := Ideal) x1 x2 x3 x4 j
      = mixDivided (nb := 64) (ns := 1024) x1 (fun a b s => x2 (ix4 a b s (0 : Fin 1))) (fun h o => x3 (ix2 o h)) x4 (j 0) (j 1) (j 2) (j 3) := by
  have hj := eq_ix4 j
  calc val_main_v13 (F := Ideal) x1 x2 x3 x4 j
      = val_main_v13 (F := Ideal) x1 x2 x3 x4 (ix4 (j 0) (j 1) (j 2) (j 3)) := congrArg _ hj
    _ = _ := ref_coords x1 x2 x3 x4 (j 0) (j 1) (j 2) (j 3)

end Cert.AliveMean

end
-- ==== Proof.Bridge.lean ====
/-
  The two programs compute one function.

  The kernel's program relays the observation as [8, 64, 1024, 128], adds the encoded mean message there (scaling first,
  on the liveness words without their unit axis and the transposed weight) and relays the sum back as [512, 1024, 128].
  The reference relays its message stage (dividing after) as [512, 1024, 128] and adds the observation. A relayout moves
  no value: relaying a sum is the sum of the relaid terms, relaying there and back is the identity, and the two message
  stages agree index by index by the law between the two arrangements.
-/
import proofs.«120451_j42545946034942_2_alg».proof.Proof.RefValue
import proofs.«120451_j42545946034942_2_alg».proof.Proof.LibAxisLayout

noncomputable section

namespace Cert.AliveMean

open Cert.AxisLayout Idealize.ShloMosaic Idealize.ShloMosaic.ValueIdx Cert.ReferenceIdeal Cert.ReferenceIdeal.Read

variable (x0 : (⟨S512x1024x128, .f32⟩ : BufTy).Contents (Elt Ideal)) (x1 : (⟨S1024x64x8x128, .f32⟩ : BufTy).Contents (Elt Ideal))
  (x2 : (⟨S8x64x1024x1, .i32⟩ : BufTy).Contents (Elt Ideal)) (x3 : (⟨S128x128, .f32⟩ : BufTy).Contents (Elt Ideal))
  (x4 : (⟨S128, .f32⟩ : BufTy).Contents (Elt Ideal))
  (h2 : S8x64x1024x1.ShapeCasts ⟨3, ![8, 64, 1024]⟩) (ht : S128x128.Transposes [1, 0] S128x128) (hb : FTy.bits .bf16 < FTy.bits .f32)

/-- The kernel's message stage on the arrays its host lines prepare, index by index. -/
abbrev kernelMix : S8x64x1024x128.Idx → EReal := fun j =>
  mixScaled (nb := 64) (ns := 1024) x1 (fun a b s => shapeCast ⟨3, ![8, 64, 1024]⟩ x2 h2 (ix3 a b s))
    (fun h o => truncf (F := Ideal) .bf16 (transpose S128x128 [1, 0] x3 ht) hb (ix2 h o)) x4 (j 0) (j 1) (j 2) (j 3)

/-- It is the reference's message stage: the liveness word of `(a, b, s)` is the argument's at `(a, b, s, 0)`, the weight
    read at `(h, o)` is the argument's at `(o, h)`, and the two arrangements agree. -/
theorem kernelMix_eq : kernelMix x1 x2 x3 x4 h2 ht hb = val_main_v13 (F := Ideal) x1 x2 x3 x4 := funext fun j =>
  ((mixScaled_congr _ _ _ _ rfl rfl (fun _ => rfl) (fun z => dropUnitLast_apply x2 h2 z (j 1) (j 2))
      (fun h => (truncf_apply _ hb _).trans (transpose_ix2_apply x3 ht h (j 3))) rfl).trans
    (mixScaled_eq_mixDivided _ _ _ _ (j 0) (j 1) (j 2) (j 3))).trans (ref_apply x1 x2 x3 x4 j).symm

/-- The kernel program's result, as a term of its arguments, is the reference's. -/
theorem bridge (h1 : S512x1024x128.ShapeCasts S8x64x1024x128) (h3 : S8x64x1024x128.ShapeCasts S512x1024x128) :
    shapeCast S512x1024x128 (wholeOut (shapeCast S8x64x1024x128 x0 h1) x1 (shapeCast ⟨3, ![8, 64, 1024]⟩ x2 h2)
        (truncf (F := Ideal) .bf16 (transpose S128x128 [1, 0] x3 ht) hb) x4) h3
      = val_main_v15 (F := Ideal) x0 x1 x2 x3 x4 := by
  funext i
  have e0 : shapeCast S512x1024x128 (shapeCast S8x64x1024x128 x0 h1) h3 i = x0 i := congrFun (shapeCast_shapeCast x0 h1 h3) i
  calc shapeCast S512x1024x128 (wholeOut (shapeCast S8x64x1024x128 x0 h1) x1 (shapeCast ⟨3, ![8, 64, 1024]⟩ x2 h2)
        (truncf (F := Ideal) .bf16 (transpose S128x128 [1, 0] x3 ht) hb) x4) h3 i
      = shapeCast S512x1024x128 (shapeCast S8x64x1024x128 x0 h1) h3 i
          + shapeCast S512x1024x128 (kernelMix x1 x2 x3 x4 h2 ht hb) h3 i := rfl
    _ = x0 i + shapeCast S512x1024x128 (val_main_v13 (F := Ideal) x1 x2 x3 x4) h3 i := by rw [e0, kernelMix_eq]
    _ = val_main_v15 (F := Ideal) x0 x1 x2 x3 x4 i := rfl

end Cert.AliveMean

end
-- ==== Proof.KernelRun.lean ====
/-
  The kernel's program, run: its result as a term of its arguments.

  Every weakly fair execution ends with the result array at the reference's term of the argument arrays: the region's
  result array is one function of the arrays the region finds, those are the arguments relaid by the lines before the
  region, the line after it relays the result, and that composite is the reference's term. The arguments end unchanged.
-/
import proofs.«120451_j42545946034942_2_alg».proof.Proof.Blocks
import proofs.«120451_j42545946034942_2_alg».proof.Proof.HostSide
import proofs.«120451_j42545946034942_2_alg».proof.Proof.Bridge

noncomputable section

namespace Cert.AliveMean

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The reference's result term at the kernel program's argument arrays. -/
abbrev expected (c : Dev nD) : Buf (Elt Ideal) ((c.tc : Thread nD τ).loc main_v5) :=
  Cert.ReferenceIdeal.Read.val_main_v15 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- What the line after the region leaves in the result buffer. -/
theorem result_eq (c : Dev nD) : Pipeline.afterTail₀ cfgs (dats m) 0 (V0 m) [hostOps1] c main_v5 = expected m c := by
  rw [tail_result, final]
  unfold regionOut
  rw [V_obs, V_alive, V_weight, V_main_arg1, V_main_arg4]
  exact bridge _ _ _ _ _ _ _ _ _ _

/-- The run: the result buffer at the expected term, the arguments unchanged. -/
theorem run : θ_run defs (onTc (τ := τ) (main (F := Ideal))) ⟨m, fun _ => 0, ρ⟩ (fun r => ∀ c : Dev nD,
      r.2.mem ((c.tc : Thread nD τ).loc main_v5) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.AliveMean

end
-- ==== Proof.lean ====
/-
  The mean message of the live agents, added to the observation: the kernel against its reference.

  Both programs add to the observation, at agent `a`, environment `b`, step `s` and output feature `o`, the encoded
  mean message `Σ_h msg (a, b, s, h) · W (o, h) + bias (o)`, where `msg` is the agent's hidden row scaled by its
  liveness over the count of the live agents of `(b, s)` clamped below by one. The kernel scales by the liveness times
  the reciprocal of the count; the reference multiplies by the liveness and divides by the count. The count is a real
  number at least one, so dividing by it is multiplying by its reciprocal on every extended real, and the product of
  extended reals is associative: the two agree everywhere (Proof/Spec.lean), and the precondition is never opened.
  The kernel's result array is read off its run block by block (Proof/Payload.lean: what a point stores at a position;
  Proof/Blocks.lean: the blocks tile the array), the lines around the region only relay arrays (Proof/HostSide.lean), the
  reference's stages are read at an index (Proof/RefValue.lean), and the two terms are one function (Proof/Bridge.lean).
  The idealization rewrote nothing, so it is preserved trivially; the three frames are the runs with the result dropped.
-/
import proofs.«120451_j42545946034942_2_alg».proof.Defs
import proofs.«120451_j42545946034942_2_alg».proof.Proof.Gen.Kernel
import proofs.«120451_j42545946034942_2_alg».proof.Proof.Gen.Kernel.Skeleton
import proofs.«120451_j42545946034942_2_alg».proof.Proof.Gen.Kernel.Launch
import proofs.«120451_j42545946034942_2_alg».proof.Proof.Gen.Kernel.Points
import proofs.«120451_j42545946034942_2_alg».proof.Proof.Gen.Kernel.Frame
import proofs.«120451_j42545946034942_2_alg».proof.Proof.Gen.KernelIdeal
import proofs.«120451_j42545946034942_2_alg».proof.Proof.Gen.KernelIdeal.Skeleton
import proofs.«120451_j42545946034942_2_alg».proof.Proof.Gen.KernelIdeal.Launch
import proofs.«120451_j42545946034942_2_alg».proof.Proof.Gen.KernelIdeal.Points
import proofs.«120451_j42545946034942_2_alg».proof.Proof.Gen.KernelIdeal.Frame
import proofs.«120451_j42545946034942_2_alg».proof.Proof.Gen.ReferenceIdeal
import proofs.«120451_j42545946034942_2_alg».proof.Proof.Gen.ReferenceIdeal.Run
import proofs.«120451_j42545946034942_2_alg».proof.Proof.Gen.ReferenceIdeal.Read
import proofs.«120451_j42545946034942_2_alg».proof.Proof.Gen.Pre_finite_inputs
import proofs.«120451_j42545946034942_2_alg».proof.Proof.KernelRun
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at one term of the arguments: the
    kernel's by its run read block by block, the reference's by its run read stage by stage. -/
theorem algebraic : Cert.algebraic_KernelIdeal_ReferenceIdeal := by
  intro m ρ m' ρ' _ hagree
  refine ⟨fun c => Cert.AliveMean.expected m c, Cert.AliveMean.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  refine (Cert.ReferenceIdeal.Read.val_main_v15_eq (F := Ideal) _ _ _ _ _).trans ?_
  rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
